-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x1024x1024 : Shape := ⟨4, ![32, 3, 1024, 1024]⟩
abbrev S_ : Shape := ⟨0, ![]⟩

class Facts : Prop where
  bcast_S_S32x3x1024x1024 : S_.BroadcastsInDim S32x3x1024x1024 (![] : Fin 0 → Fin S32x3x1024x1024.rank)
  reducesTo_S32x3x1024x1024_S_d0_1_2_3 : S32x3x1024x1024.ReducesTo [0, 1, 2, 3] S_
  h_S_ : 0 < S_.numel

variable [Facts]

def fn {F : FTy → Type} [FloatOps F] (main_arg0 : FVec F S32x3x1024x1024 .f32) : IVec S_ 1 :=
  let main_v0 : FVec F S32x3x1024x1024 .f32 := Host.absf main_arg0
  let main_cst : FVec F S_ .f32 := constant S_ .f32 0x7F800000#32
  let main_v1 : FVec F S32x3x1024x1024 .f32 := broadcastInDim S32x3x1024x1024 ![] bcast_S_S32x3x1024x1024 main_cst
  let main_v2 : IVec S32x3x1024x1024 1 := cmpf .olt main_v0 main_v1
  let main_c : IVec S_ 1 := constantI S_ 1 1#1
  let main_v3 : IVec S_ 1 := (fun x v => Host.reduce IntOp.andi x v reducesTo_S32x3x1024x1024_S_d0_1_2_3 h_S_) main_v2 main_c
  main_v3
-- ==== Kernel.lean ====
abbrev S32x3x1024x1024 : Shape := ⟨4, ![32, 3, 1024, 1024]⟩
abbrev S32x8x8 : Shape := ⟨3, ![32, 8, 8]⟩
abbrev S1x3x1024x1024 : Shape := ⟨4, ![1, 3, 1024, 1024]⟩
abbrev S1x8x8 : Shape := ⟨3, ![1, 8, 8]⟩
abbrev S3x1024x1024 : Shape := ⟨3, ![3, 1024, 1024]⟩
abbrev S3x8x128x1024 : Shape := ⟨4, ![3, 8, 128, 1024]⟩
abbrev S3x8x1024 : Shape := ⟨3, ![3, 8, 1024]⟩
abbrev S3x8x8x128 : Shape := ⟨4, ![3, 8, 8, 128]⟩
abbrev S3x8x8 : Shape := ⟨3, ![3, 8, 8]⟩
abbrev S8x8 : Shape := ⟨2, ![8, 8]⟩
abbrev S_ : Shape := ⟨0, ![]⟩
abbrev S1 : Shape := ⟨1, ![1]⟩

abbrev nBuf : Space → Nat
  | .hbm => 7
  | .vmem => 4
  | .smem => 0
  | _ => 0

abbrev bufTy : (tb : Table) → Fin (tcTables nBuf tb) → BufTy
  | .hbm, ⟨0, _⟩ => ⟨S32x3x1024x1024, .f32⟩
  | .hbm, ⟨1, _⟩ => ⟨S32x8x8, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1, .f32⟩
  | .local _ .vmem, ⟨0, _⟩ => ⟨S1x3x1024x1024, .f32⟩
  | .local _ .vmem, ⟨1, _⟩ => ⟨S1x3x1024x1024, .f32⟩
  | .local _ .vmem, ⟨2, _⟩ => ⟨S1x8x8, .f32⟩
  | .local _ .vmem, ⟨3, _⟩ => ⟨S1x8x8, .f32⟩
  | _, _ => ⟨S32x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x3x1024x1024_S1x3x1024x1024_0_0_0_0 : ∀ a, (![0, 0, 0, 0] : Fin 4 → Nat) a + S1x3x1024x1024.size a ≤ S1x3x1024x1024.size a
  h_S1x3x1024x1024 : 0 < S1x3x1024x1024.numel
  shapeCasts_S1x3x1024x1024_S3x1024x1024 : S1x3x1024x1024.ShapeCasts S3x1024x1024
  shapeCasts_S3x1024x1024_S3x8x128x1024 : S3x1024x1024.ShapeCasts S3x8x128x1024
  reduces_S3x8x128x1024_S3x8x1024 : S3x8x128x1024.Reduces [2] S3x8x1024
  shapeCasts_S3x8x1024_S3x8x8x128 : S3x8x1024.ShapeCasts S3x8x8x128
  reduces_S3x8x8x128_S3x8x8 : S3x8x8x128.Reduces [3] S3x8x8
  slices_S3x8x8_o0_0_0_S1x8x8 : S3x8x8.Slices ![0, 0, 0] S1x8x8
  shapeCasts_S1x8x8_S8x8 : S1x8x8.ShapeCasts S8x8
  slices_S3x8x8_o1_0_0_S1x8x8 : S3x8x8.Slices ![1, 0, 0] S1x8x8
  slices_S3x8x8_o2_0_0_S1x8x8 : S3x8x8.Slices ![2, 0, 0] S1x8x8
  inb_S1x8x8_S1x8x8_0_0_0 : ∀ a, (![0, 0, 0] : Fin 3 → Nat) a + S1x8x8.size a ≤ S1x8x8.size a
  h_S1x8x8 : 0 < S1x8x8.numel
  shapeCasts_S8x8_S1x8x8 : S8x8.ShapeCasts S1x8x8
  reducesTo_S32x8x8_S_d0_1_2 : S32x8x8.ReducesTo [0, 1, 2] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024x1024.size a ≤ S32x3x1024x1024.size a
  hwx0_0 : ∀ i : grid0.Coords, EltTy.bits .f32 = 32 ∨ (Rect.block (s := S32x3x1024x1024) S1x3x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x8.size a ≤ S32x8x8.size a
  hwx0_1 : ∀ i : grid0.Coords, EltTy.bits .f32 = 32 ∨ (Rect.block (s := S32x8x8) S1x8x8.size (cc0_transform_1 i) (hinb0_1 i)).WholeWords (EltTy.packing .f32)

variable [Facts₀]

abbrev win0_0 : Pipeline.Window sig grid0 :=
  Pipeline.Window.ofSpec (Memref.whole main_arg0) S1x3x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x3x1024x1024 : Shape := ⟨4, ![32, 3, 1024, 1024]⟩
abbrev S32x3x8x128x8x128 : Shape := ⟨6, ![32, 3, 8, 128, 8, 128]⟩
abbrev S_ : Shape := ⟨0, ![]⟩
abbrev S32x3x8x8 : Shape := ⟨4, ![32, 3, 8, 8]⟩
abbrev S32x1x8x8 : Shape := ⟨4, ![32, 1, 8, 8]⟩
abbrev S32x8x8 : Shape := ⟨3, ![32, 8, 8]⟩
abbrev S1 : Shape := ⟨1, ![1]⟩

abbrev nBuf : Space → Nat
  | .hbm => 81
  | .vmem => 0
  | .smem => 0
  | _ => 0

abbrev bufTy : (tb : Table) → Fin (tcTables nBuf tb) → BufTy
  | .hbm, ⟨0, _⟩ => ⟨S32x3x1024x1024, .f32⟩
  | .hbm, ⟨1, _⟩ => ⟨S32x3x8x128x8x128, .f32⟩
  | .hbm, ⟨2, _⟩ => ⟨S_, .f32⟩
  | .hbm, ⟨3, _⟩ => ⟨S32x3x8x8, .f32⟩
  | .hbm, ⟨4, _⟩ => ⟨S_, .f32⟩
  | .hbm, ⟨5, _⟩ => ⟨S32x3x8x8, .f32⟩
  | .hbm, ⟨6, _⟩ => ⟨S32x3x8x8, .f32⟩
  | .hbm, ⟨7, _⟩ => ⟨S_, .f32⟩
  | .hbm, ⟨8, _⟩ => ⟨S32x3x8x8, .f32⟩
  | .hbm, ⟨9, _⟩ => ⟨S_, .f32⟩
  | .hbm, ⟨10, _⟩ => ⟨S32x3x8x8, .f32⟩
  | .hbm, ⟨11, _⟩ => ⟨S32x1x8x8, .f32⟩
  | .hbm, ⟨12, _⟩ => ⟨S32x8x8, .f32⟩
  | .hbm, ⟨13, _⟩ => ⟨S32x1x8x8, .f32⟩
  | .hbm, ⟨14, _⟩ => ⟨S32x8x8, .f32⟩
  | .hbm, ⟨15, _⟩ => ⟨S32x8x8, .i1⟩
  | .hbm, ⟨16, _⟩ => ⟨S32x1x8x8, .f32⟩
  | .hbm, ⟨17, _⟩ => ⟨S32x8x8, .f32⟩
  | .hbm, ⟨18, _⟩ => ⟨S32x1x8x8, .f32⟩
  | .hbm, ⟨19, _⟩ => ⟨S32x8x8, .f32⟩
  | .hbm, ⟨20, _⟩ => ⟨S32x8x8, .i1⟩
  | .hbm, ⟨21, _⟩ => ⟨S32x8x8, .i1⟩
  | .hbm, ⟨22, _⟩ => ⟨S32x1x8x8, .f32⟩
  | .hbm, ⟨23, _⟩ => ⟨S32x8x8, .f32⟩
  | .hbm, ⟨24, _⟩ => ⟨S32x1x8x8, .f32⟩
  | .hbm, ⟨25, _⟩ => ⟨S32x8x8, .f32⟩
  | .hbm, ⟨26, _⟩ => ⟨S32x8x8, .f32⟩
  | .hbm, ⟨27, _⟩ => ⟨S32x8x8, .f32⟩
  | .hbm, ⟨28, _⟩ => ⟨S_, .f32⟩
  | .hbm, ⟨29, _⟩ => ⟨S_, .f32⟩
  | .hbm, ⟨30, _⟩ => ⟨S32x8x8, .f32⟩
  | .hbm, ⟨31, _⟩ => ⟨S32x8x8, .f32⟩
  | .hbm, ⟨32, _⟩ => ⟨S32x1x8x8, .f32⟩
  | .hbm, ⟨33, _⟩ => ⟨S32x8x8, .f32⟩
  | .hbm, ⟨34, _⟩ => ⟨S32x1x8x8, .f32⟩
  | .hbm, ⟨35, _⟩ => ⟨S32x8x8, .f32⟩
  | .hbm, ⟨36, _⟩ => ⟨S32x8x8, .i1⟩
  | .hbm, ⟨37, _⟩ => ⟨S32x1x8x8, .f32⟩
  | .hbm, ⟨38, _⟩ => ⟨S32x8x8, .f32⟩
  | .hbm, ⟨39, _⟩ => ⟨S32x1x8x8, .f32⟩
  | .hbm, ⟨40, _⟩ => ⟨S32x8x8, .f32⟩
  | .hbm, ⟨41, _⟩ => ⟨S32x8x8, .i1⟩
  | .hbm, ⟨42, _⟩ => ⟨S32x8x8, .i1⟩
  | .hbm, ⟨43, _⟩ => ⟨S32x1x8x8, .f32⟩
  | .hbm, ⟨44, _⟩ => ⟨S32x8x8, .f32⟩
  | .hbm, ⟨45, _⟩ => ⟨S32x1x8x8, .f32⟩
  | .hbm, ⟨46, _⟩ => ⟨S32x8x8, .f32⟩
  | .hbm, ⟨47, _⟩ => ⟨S32x8x8, .f32⟩
  | .hbm, ⟨48, _⟩ => ⟨S32x8x8, .f32⟩
  | .hbm, ⟨49, _⟩ => ⟨S_, .f32⟩
  | .hbm, ⟨50, _⟩ => ⟨S_, .f32⟩
  | .hbm, ⟨51, _⟩ => ⟨S32x8x8, .f32⟩
  | .hbm, ⟨52, _⟩ => ⟨S32x8x8, .f32⟩
  | .hbm, ⟨53, _⟩ => ⟨S32x8x8, .f32⟩
  | .hbm, ⟨54, _⟩ => ⟨S32x1x8x8, .f32⟩
  | .hbm, ⟨55, _⟩ => ⟨S32x8x8, .f32⟩
  | .hbm, ⟨56, _⟩ => ⟨S32x1x8x8, .f32⟩
  | .hbm, ⟨57, _⟩ => ⟨S32x8x8, .f32⟩
  | .hbm, ⟨58, _⟩ => ⟨S32x8x8, .i1⟩
  | .hbm, ⟨59, _⟩ => ⟨S32x1x8x8, .f32⟩
  | .hbm, ⟨60, _⟩ => ⟨S32x8x8, .f32⟩
  | .hbm, ⟨61, _⟩ => ⟨S32x1x8x8, .f32⟩
  | .hbm, ⟨62, _⟩ => ⟨S32x8x8, .f32⟩
  | .hbm, ⟨63, _⟩ => ⟨S32x8x8, .i1⟩
  | .hbm, ⟨64, _⟩ => ⟨S32x8x8, .i1⟩
  | .hbm, ⟨65, _⟩ => ⟨S32x1x8x8, .f32⟩
  | .hbm, ⟨66, _⟩ => ⟨S32x8x8, .f32⟩
  | .hbm, ⟨67, _⟩ => ⟨S32x1x8x8, .f32⟩
  | .hbm, ⟨68, _⟩ => ⟨S32x8x8, .f32⟩
  | .hbm, ⟨69, _⟩ => ⟨S32x8x8, .f32⟩
  | .hbm, ⟨70, _⟩ => ⟨S32x8x8, .f32⟩
  | .hbm, ⟨71, _⟩ => ⟨S_, .f32⟩
  | .hbm, ⟨72, _⟩ => ⟨S_, .f32⟩
  | .hbm, ⟨73, _⟩ => ⟨S32x8x8, .f32⟩
  | .hbm, ⟨74, _⟩ => ⟨S32x8x8, .f32⟩
  | .hbm, ⟨75, _⟩ => ⟨S32x8x8, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1, .f32⟩
  | _, _ => ⟨S32x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_5 : Ref sig .tc := ⟨.hbm, 71, rfl⟩
abbrev main_call2_v0 : Ref sig .tc := ⟨.hbm, 72, rfl⟩
abbrev main_call2_v1 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_cst_7 : Ref sig .tc := ⟨.hbm, 78, rfl⟩
abbrev main_v63 : Ref sig .tc := ⟨.hbm, 79, rfl⟩
abbrev main_v64 : Ref sig .tc := ⟨.hbm, 80, rfl⟩

abbrev nD : Nat := 1
abbrev τ : Topo := Topo.v7x

variable {F : FTy → Type} [FloatOps F]

class Facts₀ : Prop where
  shapeCasts_S32x3x1024x1024_S32x3x8x128x8x128 : S32x3x1024x1024.ShapeCasts S32x3x8x128x8x128
  reducesTo_S32x3x8x128x8x128_S32x3x8x8_d3_5 : S32x3x8x128x8x128.ReducesTo [3, 5] S32x3x8x8
  h_S_ : 0 < S_.numel
  bcast_S_S32x3x8x8 : S_.BroadcastsInDim S32x3x8x8 (![] : Fin 0 → Fin S32x3x8x8.rank)
  slices_S32x3x8x8_S32x1x8x8_0_0_0_0 : S32x3x8x8.Slices ![0, 0, 0, 0] S32x1x8x8
  shapeCasts_S32x1x8x8_S32x8x8 : S32x1x8x8.ShapeCasts S32x8x8
  slices_S32x3x8x8_S32x1x8x8_0_1_0_0 : S32x3x8x8.Slices ![0, 1, 0, 0] S32x1x8x8
  bcast_S_S32x8x8 : S_.BroadcastsInDim S32x8x8 (![] : Fin 0 → Fin S32x8x8.rank)
  slices_S32x3x8x8_S32x1x8x8_0_2_0_0 : S32x3x8x8.Slices ![0, 2, 0, 0] S32x1x8x8
  reducesTo_S32x8x8_S_d0_1_2 : S32x8x8.ReducesTo [0, 1, 2] S_
  shapeCasts_S_S1 : S_.ShapeCasts S1

variable [Facts₀]

class Facts : Prop extends Facts₀ where

variable [Facts]
-- ==== Proof.BlockStats.lean ====
/-
  The common value of the kernel and the reference, as one function of the argument array.

  The argument is an array X of shape [32, 3, 1024, 1024]: 32 images of 3 colour channels. Each 1024 x 1024 channel is cut
  into an 8 x 8 grid of blocks of 128 x 128 entries. For image b, channel c and block (p, q) three statistics are taken over
  the block's 16384 entries: their mean (the sum divided by 16384), their maximum and their minimum. For a pair (i, j) of
  channels the pair's term at a block is 0 when the two channels' ranges at that block do not meet (min_i > max_j or
  max_i < min_j) and the squared difference of the two means otherwise. `D X` at (b, p, q) is the sum of the terms of the
  pairs (0, 1), (1, 2), (0, 2). Both programs end by adding all 32 * 8 * 8 entries of `D X` and dividing by 64.
-/
import Idealize.ShloMosaic.PureOps.Ideal
import Idealize.ShloMosaic.Lib.ValueIdx

noncomputable section

namespace Cert.BlockStats

open Idealize.ShloMosaic Idealize.ShloMosaic.ValueIdx

/-- The argument's shape and the shape of the per-block result. -/
abbrev SX : Shape := ⟨4, ![32, 3, 1024, 1024]⟩
abbrev SD : Shape := ⟨3, ![32, 8, 8]⟩

/-- Row (or column) `k` of block `p` along an axis of 1024 cut into eight blocks of 128. -/
def pos (p : Fin 8) (k : Fin 128) : Fin 1024 := ⟨128 * p.val + k.val, by omega⟩

theorem pos_val (p : Fin 8) (k : Fin 128) : (pos p k).val = 128 * p.val + k.val := rfl

/-- Entry (k.1, k.2) of block (p, q) of channel c of image b. -/
def entry (X : SX.Idx → EReal) (b : Fin 32) (c : Fin 3) (p q : Fin 8) (k : Fin 128 × Fin 128) : EReal :=
  X (ix4 b c (pos p k.1) (pos q k.2))

/-- The block's mean: the sum of its 16384 entries over 16384.0 (the f32 word 0x46800000). -/
def blkMean (X : SX.Idx → EReal) (b : Fin 32) (c : Fin 3) (p q : Fin 8) : EReal :=
  Ideal.div (∑ k : Fin 128 × Fin 128, entry X b c p q k) (Ideal.ofBits .f32 0x46800000#32)

/-- The block's maximum, folded from the f32 word of -inf. -/
def blkMax (X : SX.Idx → EReal) (b : Fin 32) (c : Fin 3) (p q : Fin 8) : EReal :=
  (Finset.univ : Finset (Fin 128 × Fin 128)).fold max (Ideal.ofBits .f32 0xFF800000#32) (entry X b c p q)

/-- The block's minimum, folded from the f32 word of +inf. -/
def blkMin (X : SX.Idx → EReal) (b : Fin 32) (c : Fin 3) (p q : Fin 8) : EReal :=
  (Finset.univ : Finset (Fin 128 × Fin 128)).fold min (Ideal.ofBits .f32 0x7F800000#32) (entry X b c p q)

/-- The term of the channel pair (i, j) from the three statistics of one block, channel by channel. -/
def pairTerm (mean mx mn : Fin 3 → EReal) (i j : Fin 3) : EReal :=
  Scalar.select (IntOp.ori (FloatOps.cmpf (F := Ideal) (φ := .f32) .ogt (mn i) (mx j)) (FloatOps.cmpf (F := Ideal) (φ := .f32) .olt (mx i) (mn j)))
    (Ideal.ofBits .f32 0x00000000#32) ((mean i - mean j) * (mean i - mean j))

/-- The three pairs' terms added, in the order both programs add them. -/
def combine (mean mx mn : Fin 3 → EReal) : EReal :=
  pairTerm mean mx mn 0 1 + pairTerm mean mx mn 1 2 + pairTerm mean mx mn 0 2

/-- The per-block result: at (b, p, q) the combined term of the statistics of block (p, q) of image b. -/
def D (X : SX.Idx → EReal) : SD.Idx → EReal := fun i =>
  combine (fun c => blkMean X (i 0) c (i 1) (i 2)) (fun c => blkMax X (i 0) c (i 1) (i 2))
    (fun c => blkMin X (i 0) c (i 1) (i 2))

theorem D_apply (X : SX.Idx → EReal) (b : Fin 32) (p q : Fin 8) :
    D X (ix3 b p q) = combine (fun c => blkMean X b c p q) (fun c => blkMax X b c p q) (fun c => blkMin X b c p q) := rfl

end Cert.BlockStats

end
-- ==== Proof.Tail.lean ====
/-
  The last step both programs share: all 32 * 8 * 8 entries of the per-block result are added (from 0), the sum is divided by
  64.0 (the f32 word 0x42800000), and the scalar is given the shape [1].
-/
import Idealize.ShloMosaic.PureOps
import proofs.«146078_j73358041416354_2_alg».proof.Proof.BlockStats

noncomputable section

namespace Cert.BlockStats

open Idealize.ShloMosaic

/-- The scalar shape and the result's shape. -/
abbrev S0 : Shape := ⟨0, ![]⟩
abbrev SR : Shape := ⟨1, ![1]⟩

/-- The sum of every entry of `d`, from 0, over 64, as an array of one entry. -/
def tail (d : FVec Ideal SD .f32) : FVec Ideal SR .f32 :=
  shapeCast SR
    (Host.divf
      (Host.reduceAdd d (constant (F := Ideal) S0 .f32 0x00000000#32) (by decide : SD.ReducesTo [0, 1, 2] S0) (by decide : 0 < S0.numel))
      (constant (F := Ideal) S0 .f32 0x42800000#32))
    (by decide : S0.ShapeCasts SR)

end Cert.BlockStats

end
-- ==== Proof.TwoStage.lean ====
/-
  A block statistic taken in two stages is the statistic of the whole block.

  The kernel reduces a 128 x 128 block first along its rows (for every column k2, over the 128 row offsets k1) and then
  reduces the 128 results along the columns; the reference reduces over all 16384 entries at once. For a maximum or a
  minimum, folded from the same starting value at both stages, the two agree on any extended reals: both are the least
  upper (greatest lower) bound of the starting value and the entries. For the mean the kernel divides by 128 at each
  stage and the reference divides the whole sum by 16384; dividing by a nonzero real is multiplying by its reciprocal,
  and for REAL entries the factor 1/128 moves out of the inner sums, (1/128) * (1/128) = 1/16384.
-/
import Idealize.ShloMosaic.PureOps.Ideal
import Idealize.ShloMosaic.PureOps.Ideal.Laws

noncomputable section

namespace Cert.TwoStage

open Idealize.ShloMosaic

/-- A maximum folded over the columns of the maxima folded over each column's rows, from one starting value `b`, is the
    maximum folded over all pairs. -/
theorem fold_max (b : EReal) (f : Fin 128 × Fin 128 → EReal) :
    (Finset.univ : Finset (Fin 128)).fold max b
        (fun k2 => (Finset.univ : Finset (Fin 128)).fold max b (fun k1 => f (k1, k2)))
      = (Finset.univ : Finset (Fin 128 × Fin 128)).fold max b f := by
  refine eq_of_forall_ge_iff fun z => ?_
  simp only [Finset.fold_max_le, Finset.mem_univ, forall_true_left]
  constructor
  · rintro ⟨hb, h⟩
    exact ⟨hb, fun k => (h k.2).2 k.1⟩
  · rintro ⟨hb, h⟩
    exact ⟨hb, fun k2 => ⟨hb, fun k1 => h (k1, k2)⟩⟩

/-- The same for a minimum. -/
theorem fold_min (b : EReal) (f : Fin 128 × Fin 128 → EReal) :
    (Finset.univ : Finset (Fin 128)).fold min b
        (fun k2 => (Finset.univ : Finset (Fin 128)).fold min b (fun k1 => f (k1, k2)))
      = (Finset.univ : Finset (Fin 128 × Fin 128)).fold min b f := by
  refine eq_of_forall_le_iff fun z => ?_
  simp only [Finset.le_fold_min, Finset.mem_univ, forall_true_left]
  constructor
  · rintro ⟨hb, h⟩
    exact ⟨hb, fun k => (h k.2).2 k.1⟩
  · rintro ⟨hb, h⟩
    exact ⟨hb, fun k2 => ⟨hb, fun k1 => h (k1, k2)⟩⟩

/-- A finite sum of real numbers, taken in the extended reals, is the real sum. -/
theorem sum_coe {ι : Type*} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The f32 word 0x43000000 is 128. -/
theorem word_128 : Ideal.ofBits .f32 0x43000000#32 = ((128 : ℝ) : EReal) := by
  simp [Ideal.ofBits, Ideal.ieee, -EReal.coe_mul]
  norm_num

/-- The f32 word 0x46800000 is 16384. -/
theorem word_16384 : Ideal.ofBits .f32 0x46800000#32 = ((16384 : ℝ) : EReal) := by
  simp [Ideal.ofBits, Ideal.ieee, -EReal.coe_mul]
  norm_num

/-- For real entries: the mean over the columns of the means over each column's rows, each a sum divided by 128.0 (the f32
    word 0x43000000), is the sum over all pairs divided by 16384.0 (the f32 word 0x46800000). -/
theorem mean (f : Fin 128 × Fin 128 → EReal) (hf : ∀ k, ∃ r : ℝ, f k = (r : EReal)) :
    Ideal.div (∑ k2 : Fin 128, Ideal.div (∑ k1 : Fin 128, f (k1, k2)) (Ideal.ofBits .f32 0x43000000#32))
        (Ideal.ofBits .f32 0x43000000#32)
      = Ideal.div (∑ k : Fin 128 × Fin 128, f k) (Ideal.ofBits .f32 0x46800000#32) := by
  choose r hr using hf
  obtain rfl : f = fun k => ((r k : ℝ) : EReal) := funext hr
  rw [word_128, word_16384]
  simp only [Ideal.div_coe (by norm_num : (128 : ℝ) ≠ 0), Ideal.div_coe (by norm_num : (16384 : ℝ) ≠ 0),
    sum_coe, ← EReal.coe_mul]
  refine congrArg _ ?_
  rw [Fintype.sum_prod_type_right, ← Finset.sum_mul]
  ring

end Cert.TwoStage

end
-- ==== Proof.KernelBlock.lean ====
/-
  One grid point of the idealized kernel, read at an index.

  The body of the kernel receives one image as a block of shape [1, 3, 1024, 1024] and stores a block of shape
  [1, 8, 8].  This module shows that the stored block holds, at (0, p, q), the three channel-pair terms of the
  statistics of the 128 x 128 block (p, q) of the image, added: the specification's per-block result.

  The kernel takes every statistic in two stages: first over the 128 rows of a block for each of the 1024 columns,
  then, after the 1024 columns are regrouped as 8 x 128, over the 128 columns of each block.  Each stage is read
  at an index as a sum (or a fold of max / min) over one coordinate; the two-stage laws then give the block's
  single mean, maximum and minimum.
-/
import proofs.«146078_j73358041416354_2_alg».proof.Proof.Gen.KernelIdeal.Frame
import proofs.«146078_j73358041416354_2_alg».proof.Proof.BlockStats
import proofs.«146078_j73358041416354_2_alg».proof.Proof.TwoStage
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Block

open Cert.KernelIdeal Cert.KernelIdeal.Gen Cert.BlockStats Idealize.ShloMosaic Idealize.ShloMosaic.ValueIdx

/-! ## The regrouped input at an index -/

/-- The input block regrouped as [3, 8, 128, 1024]: at (c, p, k, s) it is the block at channel c, row 128 p + k,
    column s. -/
theorem regrouped_apply (v0 : Vec Ideal S1x3x1024x1024 .f32) (c : Fin 3) (p : Fin 8) (k : Fin 128) (s : Fin 1024) :
    k0_pay2 (F := Ideal) v0 (ix4 c p k s) = v0 (ix4 0 c (pos p k) s) := by
  unfold k0_pay2
  refine (shapeCast_apply _ _ (ix4 c p k s) (ix3 c (pos p k) s) ?_).trans ?_
  · rw [Shape.rowMajor_val_three, Shape.rowMajor_val_four]
    show (c.val * 1024 + (128 * p.val + k.val)) * 1024 + s.val
      = ((c.val * 8 + p.val) * 128 + k.val) * 1024 + s.val
    omega
  · exact shapeCast_1abc_abc_apply _ _ c (pos p k) s

/-- A [3, 8, 1024] array regrouped as [3, 8, 8, 128]: at (c, p, q, k) it is the array at (c, p, 128 q + k). -/
theorem columns_regrouped_apply (v : FVec Ideal S3x8x1024 .f32) (h : S3x8x1024.ShapeCasts S3x8x8x128)
    (c : Fin 3) (p q : Fin 8) (k : Fin 128) :
    shapeCast S3x8x8x128 v h (ix4 c p q k) = v (ix3 c p (pos q k)) := by
  refine shapeCast_apply _ _ (ix4 c p q k) (ix3 c p (pos q k)) ?_
  rw [Shape.rowMajor_val_three, Shape.rowMajor_val_four]
  show (c.val * 8 + p.val) * 1024 + (128 * q.val + k.val)
    = ((c.val * 8 + p.val) * 8 + q.val) * 128 + k.val
  omega

/-! ## One stage of a statistic at an index -/

/-- Stage 1 of the sum: over the 128 rows of block-row p, for a fixed column. -/
theorem rows_sum_apply (src : FVec Ideal S3x8x128x1024 .f32) (h : S3x8x128x1024.Reduces [2] S3x8x1024)
    (hφ : FKind.Formats .f32) (hacc : (0x00000000#32 : BitVec 32) = FKind.add.neutral .f32 hφ)
    (c : Fin 3) (p : Fin 8) (s : Fin 1024) :
    multiReduction (F := Ideal) .add [2] S3x8x1024 src 0x00000000#32 h hφ hacc (ix3 c p s)
      = ∑ k : Fin 128, src (ix4 c p k s) := by
  refine (Ideal.multiReduction_add_single src _ h hφ hacc (ix3 c p s)).trans ?_
  refine Finset.sum_congr rfl fun k _ => congrArg src ?_
  funext a; refine Fin.ext ?_
  match a with | ⟨0, _⟩ => rfl | ⟨1, _⟩ => rfl | ⟨2, _⟩ => rfl | ⟨3, _⟩ => rfl

/-- Stage 2 of the sum: over the 128 columns of block-column q. -/
theorem cols_sum_apply (src : FVec Ideal S3x8x8x128 .f32) (h : S3x8x8x128.Reduces [3] S3x8x8)
    (hφ : FKind.Formats .f32) (hacc : (0x00000000#32 : BitVec 32) = FKind.add.neutral .f32 hφ)
    (c : Fin 3) (p q : Fin 8) :
    multiReduction (F := Ideal) .add [3] S3x8x8 src 0x00000000#32 h hφ hacc (ix3 c p q)
      = ∑ k : Fin 128, src (ix4 c p q k) := by
  refine (Ideal.multiReduction_add_single src _ h hφ hacc (ix3 c p q)).trans ?_
  refine Finset.sum_congr rfl fun k _ => congrArg src ?_
  funext a; refine Fin.ext ?_
  match a with | ⟨0, _⟩ => rfl | ⟨1, _⟩ => rfl | ⟨2, _⟩ => rfl | ⟨3, _⟩ => rfl

/-- A minimum taken over one axis, read at an index: the fold of `min` from the starting value over that axis's
    coordinates (the counterpart of the library's reading of a maximum). -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Stage 1 of the maximum: over the 128 rows of block-row p, for a fixed column. -/
theorem rows_max_apply (src : FVec Ideal S3x8x128x1024 .f32) (h : S3x8x128x1024.Reduces [2] S3x8x1024)
    (hφ : FKind.Formats .f32) (hacc : (0xFF800000#32 : BitVec 32) = FKind.maximumf.neutral .f32 hφ)
    (c : Fin 3) (p : Fin 8) (s : Fin 1024) :
    multiReduction (F := Ideal) .maximumf [2] S3x8x1024 src 0xFF800000#32 h hφ hacc (ix3 c p s)
      = (Finset.univ : Finset (Fin 128)).fold max (Ideal.ofBits .f32 0xFF800000#32) (fun k => src (ix4 c p k s)) := by
  refine (Ideal.multiReduction_maximumf_single src _ h hφ hacc (ix3 c p s)).trans ?_
  refine congrArg (fun f => (Finset.univ : Finset (Fin 128)).fold max (Ideal.ofBits .f32 0xFF800000#32) f) ?_
  funext k; refine congrArg src ?_
  funext a; refine Fin.ext ?_
  match a with | ⟨0, _⟩ => rfl | ⟨1, _⟩ => rfl | ⟨2, _⟩ => rfl | ⟨3, _⟩ => rfl

/-- Stage 2 of the maximum: over the 128 columns of block-column q. -/
theorem cols_max_apply (src : FVec Ideal S3x8x8x128 .f32) (h : S3x8x8x128.Reduces [3] S3x8x8)
    (hφ : FKind.Formats .f32) (hacc : (0xFF800000#32 : BitVec 32) = FKind.maximumf.neutral .f32 hφ)
    (c : Fin 3) (p q : Fin 8) :
    multiReduction (F := Ideal) .maximumf [3] S3x8x8 src 0xFF800000#32 h hφ hacc (ix3 c p q)
      = (Finset.univ : Finset (Fin 128)).fold max (Ideal.ofBits .f32 0xFF800000#32) (fun k => src (ix4 c p q k)) := by
  refine (Ideal.multiReduction_maximumf_single src _ h hφ hacc (ix3 c p q)).trans ?_
  refine congrArg (fun f => (Finset.univ : Finset (Fin 128)).fold max (Ideal.ofBits .f32 0xFF800000#32) f) ?_
  funext k; refine congrArg src ?_
  funext a; refine Fin.ext ?_
  match a with | ⟨0, _⟩ => rfl | ⟨1, _⟩ => rfl | ⟨2, _⟩ => rfl | ⟨3, _⟩ => rfl

/-- Stage 1 of the minimum: over the 128 rows of block-row p, for a fixed column. -/
theorem rows_min_apply (src : FVec Ideal S3x8x128x1024 .f32) (h : S3x8x128x1024.Reduces [2] S3x8x1024)
    (hφ : FKind.Formats .f32) (hacc : (0x7F800000#32 : BitVec 32) = FKind.minimumf.neutral .f32 hφ)
    (c : Fin 3) (p : Fin 8) (s : Fin 1024) :
    multiReduction (F := Ideal) .minimumf [2] S3x8x1024 src 0x7F800000#32 h hφ hacc (ix3 c p s)
      = (Finset.univ : Finset (Fin 128)).fold min (Ideal.ofBits .f32 0x7F800000#32) (fun k => src (ix4 c p k s)) := by
  refine (multiReduction_minimumf_single src _ h hφ hacc (ix3 c p s)).trans ?_
  refine congrArg (fun f => (Finset.univ : Finset (Fin 128)).fold min (Ideal.ofBits .f32 0x7F800000#32) f) ?_
  funext k; refine congrArg src ?_
  funext a; refine Fin.ext ?_
  match a with | ⟨0, _⟩ => rfl | ⟨1, _⟩ => rfl | ⟨2, _⟩ => rfl | ⟨3, _⟩ => rfl

/-- Stage 2 of the minimum: over the 128 columns of block-column q. -/
theorem cols_min_apply (src : FVec Ideal S3x8x8x128 .f32) (h : S3x8x8x128.Reduces [3] S3x8x8)
    (hφ : FKind.Formats .f32) (hacc : (0x7F800000#32 : BitVec 32) = FKind.minimumf.neutral .f32 hφ)
    (c : Fin 3) (p q : Fin 8) :
    multiReduction (F := Ideal) .minimumf [3] S3x8x8 src 0x7F800000#32 h hφ hacc (ix3 c p q)
      = (Finset.univ : Finset (Fin 128)).fold min (Ideal.ofBits .f32 0x7F800000#32) (fun k => src (ix4 c p q k)) := by
  refine (multiReduction_minimumf_single src _ h hφ hacc (ix3 c p q)).trans ?_
  refine congrArg (fun f => (Finset.univ : Finset (Fin 128)).fold min (Ideal.ofBits .f32 0x7F800000#32) f) ?_
  funext k; refine congrArg src ?_
  funext a; refine Fin.ext ?_
  match a with | ⟨0, _⟩ => rfl | ⟨1, _⟩ => rfl | ⟨2, _⟩ => rfl | ⟨3, _⟩ => rfl

/-! ## The three statistics of a block, as the kernel takes them -/

/-- The entries of block (p, q) of channel c of the body's input block, by their offsets inside the block. -/
def blk (v0 : Vec Ideal S1x3x1024x1024 .f32) (c : Fin 3) (p q : Fin 8) (k : Fin 128 × Fin 128) : EReal :=
  v0 (ix4 0 c (pos p k.1) (pos q k.2))

/-- The kernel's mean at (c, p, q): the column sums of the row sums, each divided by 128. -/
theorem mean_two_stage (v0 : Vec Ideal S1x3x1024x1024 .f32) (c : Fin 3) (p q : Fin 8) :
    k0_pay3 (F := Ideal) v0 (ix3 c p q)
      = Ideal.div (∑ k2 : Fin 128, Ideal.div (∑ k1 : Fin 128, blk v0 c p q (k1, k2)) (Ideal.ofBits .f32 0x43000000#32))
          (Ideal.ofBits .f32 0x43000000#32) := by
  unfold k0_pay3
  refine congrArg (fun x => Ideal.div x (Ideal.ofBits .f32 0x43000000#32)) ?_
  refine (cols_sum_apply _ _ _ _ c p q).trans ?_
  refine Finset.sum_congr rfl fun k2 _ => ?_
  refine (columns_regrouped_apply _ _ c p q k2).trans ?_
  refine congrArg (fun x => Ideal.div x (Ideal.ofBits .f32 0x43000000#32)) ?_
  refine (rows_sum_apply _ _ _ _ c p (pos q k2)).trans ?_
  exact Finset.sum_congr rfl fun k1 _ => regrouped_apply v0 c p k1 (pos q k2)

/-- The kernel's maximum at (c, p, q): the maximum over the columns of the maxima over each column's rows. -/
theorem max_two_stage (v0 : Vec Ideal S1x3x1024x1024 .f32) (c : Fin 3) (p q : Fin 8) :
    k0_pay4 (F := Ideal) v0 (ix3 c p q)
      = (Finset.univ : Finset (Fin 128)).fold max (Ideal.ofBits .f32 0xFF800000#32) (fun k2 =>
          (Finset.univ : Finset (Fin 128)).fold max (Ideal.ofBits .f32 0xFF800000#32) (fun k1 => blk v0 c p q (k1, k2))) := by
  unfold k0_pay4
  refine (cols_max_apply _ _ _ _ c p q).trans ?_
  refine congrArg (fun f => (Finset.univ : Finset (Fin 128)).fold max (Ideal.ofBits .f32 0xFF800000#32) f) ?_
  funext k2
  refine (columns_regrouped_apply _ _ c p q k2).trans ?_
  refine (rows_max_apply _ _ _ _ c p (pos q k2)).trans ?_
  refine congrArg (fun f => (Finset.univ : Finset (Fin 128)).fold max (Ideal.ofBits .f32 0xFF800000#32) f) ?_
  funext k1
  exact regrouped_apply v0 c p k1 (pos q k2)

/-- The kernel's minimum at (c, p, q): the minimum over the columns of the minima over each column's rows. -/
theorem min_two_stage (v0 : Vec Ideal S1x3x1024x1024 .f32) (c : Fin 3) (p q : Fin 8) :
    k0_pay5 (F := Ideal) v0 (ix3 c p q)
      = (Finset.univ : Finset (Fin 128)).fold min (Ideal.ofBits .f32 0x7F800000#32) (fun k2 =>
          (Finset.univ : Finset (Fin 128)).fold min (Ideal.ofBits .f32 0x7F800000#32) (fun k1 => blk v0 c p q (k1, k2))) := by
  unfold k0_pay5
  refine (cols_min_apply _ _ _ _ c p q).trans ?_
  refine congrArg (fun f => (Finset.univ : Finset (Fin 128)).fold min (Ideal.ofBits .f32 0x7F800000#32) f) ?_
  funext k2
  refine (columns_regrouped_apply _ _ c p q k2).trans ?_
  refine (rows_min_apply _ _ _ _ c p (pos q k2)).trans ?_
  refine congrArg (fun f => (Finset.univ : Finset (Fin 128)).fold min (Ideal.ofBits .f32 0x7F800000#32) f) ?_
  funext k1
  exact regrouped_apply v0 c p k1 (pos q k2)

/-! ## The channel pairs -/

/-- Channel c of a [3, 8, 8] array of statistics — cut out as a [1, 8, 8] slice at offset (c, 0, 0) and read as
    [8, 8] — at (p, q) is the array at (c, p, q). -/
theorem channel_apply {α : Type} (off : Fin 3 → Nat) (v : S3x8x8.Idx → α) (h : S3x8x8.Slices off S1x8x8)
    (h' : S1x8x8.ShapeCasts S8x8) (c : Fin 3) (h0 : off 0 = c.val) (h1 : off 1 = 0) (h2 : off 2 = 0) (p q : Fin 8) :
    shapeCast S8x8 (extractStridedSlice S1x8x8 off v h) h' (ix2 p q) = v (ix3 c p q) := by
  refine (shapeCast_1ab_ab_apply _ h' p q).trans ?_
  refine extractStridedSlice_apply off v h _ (ix3 c p q) fun a => ?_
  match a with
  | ⟨0, _⟩ => show c.val = off 0 + 0; omega
  | ⟨1, _⟩ => show p.val = off 1 + p.val; omega
  | ⟨2, _⟩ => show q.val = off 2 + q.val; omega

theorem channel0_apply {α : Type} (v : S3x8x8.Idx → α) (h : S3x8x8.Slices ![0, 0, 0] S1x8x8)
    (h' : S1x8x8.ShapeCasts S8x8) (p q : Fin 8) :
    shapeCast S8x8 (extractStridedSlice S1x8x8 ![0, 0, 0] v h) h' (ix2 p q) = v (ix3 0 p q) :=
  channel_apply _ v h h' 0 rfl rfl rfl p q

theorem channel1_apply {α : Type} (v : S3x8x8.Idx → α) (h : S3x8x8.Slices ![1, 0, 0] S1x8x8)
    (h' : S1x8x8.ShapeCasts S8x8) (p q : Fin 8) :
    shapeCast S8x8 (extractStridedSlice S1x8x8 ![1, 0, 0] v h) h' (ix2 p q) = v (ix3 1 p q) :=
  channel_apply _ v h h' 1 rfl rfl rfl p q

theorem channel2_apply {α : Type} (v : S3x8x8.Idx → α) (h : S3x8x8.Slices ![2, 0, 0] S1x8x8)
    (h' : S1x8x8.ShapeCasts S8x8) (p q : Fin 8) :
    shapeCast S8x8 (extractStridedSlice S1x8x8 ![2, 0, 0] v h) h' (ix2 p q) = v (ix3 2 p q) :=
  channel_apply _ v h h' 2 rfl rfl rfl p q

/-- A bitwise "or" of two masks at an index is the "or" of the bits. -/
theorem ori_apply {s : Shape} {w : Nat} (x y : IVec s w) (i : s.Idx) : ori x y i = IntOp.ori (x i) (y i) := rfl

/-- The term of the pair (0, 1) at (p, q), from the kernel's three arrays of statistics. -/
theorem pair01_apply (v0 : Vec Ideal S1x3x1024x1024 .f32) (p q : Fin 8) :
    k0_pay6 (F := Ideal) v0 (ix2 p q)
      = pairTerm (fun c => k0_pay3 (F := Ideal) v0 (ix3 c p q)) (fun c => k0_pay4 (F := Ideal) v0 (ix3 c p q))
          (fun c => k0_pay5 (F := Ideal) v0 (ix3 c p q)) 0 1 := by
  unfold k0_pay6 pairTerm
  simp only [select_apply, ori_apply, cmpf_apply, subf_apply, mulf_apply, broadcast_apply, channel0_apply,
    channel1_apply]
  rfl

/-- The skip mask of the pair (1, 2) at (p, q). -/
theorem mask12_apply (v0 : Vec Ideal S1x3x1024x1024 .f32) (p q : Fin 8) :
    k0_pay7 (F := Ideal) v0 (ix2 p q)
      = IntOp.ori
          (FloatOps.cmpf (F := Ideal) (φ := .f32) .ogt (k0_pay5 (F := Ideal) v0 (ix3 1 p q)) (k0_pay4 (F := Ideal) v0 (ix3 2 p q)))
          (FloatOps.cmpf (F := Ideal) (φ := .f32) .olt (k0_pay4 (F := Ideal) v0 (ix3 1 p q)) (k0_pay5 (F := Ideal) v0 (ix3 2 p q))) := by
  unfold k0_pay7
  simp only [ori_apply, cmpf_apply, channel1_apply, channel2_apply]

/-- The stored block at (0, p, q): the pair (0, 1)'s term, plus the pair (1, 2)'s term under its mask, plus the pair
    (0, 2)'s term. -/
theorem stored_apply (v13 v14 v15 : FVec Ideal S3x8x8 .f32) (v34 : FVec Ideal S8x8 .f32) (v45 : IVec S8x8 1)
    (u : Fin 1) (p q : Fin 8) :
    k0_pay1 (F := Ideal) v13 v14 v15 v34 v45 (ix3 u p q)
      = v34 (ix2 p q)
        + Scalar.select (v45 (ix2 p q)) (Ideal.ofBits .f32 0x00000000#32)
            ((v13 (ix3 1 p q) - v13 (ix3 2 p q)) * (v13 (ix3 1 p q) - v13 (ix3 2 p q)))
        + pairTerm (fun c => v13 (ix3 c p q)) (fun c => v14 (ix3 c p q)) (fun c => v15 (ix3 c p q)) 0 2 := by
  unfold k0_pay1 pairTerm
  refine (shapeCast_ab_1ab_apply _ _ u p q).trans ?_
  simp only [addf_apply, select_apply, ori_apply, cmpf_apply, subf_apply, mulf_apply, broadcast_apply,
    channel0_apply, channel1_apply, channel2_apply]
  rfl

/-- The stored block at (0, p, q) is the three pairs' terms of the kernel's statistics at (p, q), added. -/
theorem stored_combine (v0 : Vec Ideal S1x3x1024x1024 .f32) (p q : Fin 8) :
    k0_pay1 (F := Ideal) (k0_pay3 v0) (k0_pay4 v0) (k0_pay5 v0) (k0_pay6 v0) (k0_pay7 v0) (ix3 0 p q)
      = combine (fun c => k0_pay3 (F := Ideal) v0 (ix3 c p q)) (fun c => k0_pay4 (F := Ideal) v0 (ix3 c p q))
          (fun c => k0_pay5 (F := Ideal) v0 (ix3 c p q)) := by
  rw [stored_apply, pair01_apply, mask12_apply]
  rfl

/-! ## One grid point -/

/-- If the body's input block is image b of a real-valued array X, the block it stores holds, at (0, p, q), the
    specification's per-block result of X at (b, p, q).  The entries being real is what lets the two divisions by
    128 of the kernel's mean be the single division by 16384. -/
theorem out_apply (X : SX.Idx → EReal) (hX : ∀ i, ∃ r : ℝ, X i = (r : EReal)) (b : Fin 32)
    (x0 : Vec Ideal S1x3x1024x1024 .f32)
    (hblk : ∀ (c : Fin 3) (r s : Fin 1024), x0 (ix4 0 c r s) = X (ix4 b c r s)) (p q : Fin 8) :
    Gen.out0_1 (F := Ideal) x0 (ix3 0 p q) = D X (ix3 b p q) := by
  have hz3 : (![0, 0, 0] : Fin 3 → Nat) = fun _ => 0 := by
    funext a; match a with | ⟨0, _⟩ => rfl | ⟨1, _⟩ => rfl | ⟨2, _⟩ => rfl
  have hz4 : (![0, 0, 0, 0] : Fin 4 → Nat) = fun _ => 0 := by
    funext a; match a with | ⟨0, _⟩ => rfl | ⟨1, _⟩ => rfl | ⟨2, _⟩ => rfl | ⟨3, _⟩ => rfl
  have hentry : ∀ c, blk x0 c p q = entry X b c p q := fun c => funext fun k => hblk c _ _
  have hreal : ∀ c k, ∃ r : ℝ, blk x0 c p q k = (r : EReal) := fun c k => by rw [hentry]; exact hX _
  have hmean : (fun c => k0_pay3 (F := Ideal) x0 (ix3 c p q)) = fun c => blkMean X b c p q := funext fun c =>
    (mean_two_stage x0 c p q).trans ((Cert.TwoStage.mean (blk x0 c p q) (hreal c)).trans (by rw [hentry]; rfl))
  have hmax : (fun c => k0_pay4 (F := Ideal) x0 (ix3 c p q)) = fun c => blkMax X b c p q := funext fun c =>
    (max_two_stage x0 c p q).trans ((Cert.TwoStage.fold_max _ (blk x0 c p q)).trans (by rw [hentry]; rfl))
  have hmin : (fun c => k0_pay5 (F := Ideal) x0 (ix3 c p q)) = fun c => blkMin X b c p q := funext fun c =>
    (min_two_stage x0 c p q).trans ((Cert.TwoStage.fold_min _ (blk x0 c p q)).trans (by rw [hentry]; rfl))
  unfold Gen.out0_1
  rw [View.canon_unit_zero hz3]
  simp only [View.ld_unit_zero (S := S1x3x1024x1024) hz4]
  rw [stored_combine, hmean, hmax, hmin, D_apply]

end Cert.KernelIdeal.Block

end
-- ==== Proof.KernelArray.lean ====
/-
  The idealized kernel's result, read off its run.

  The kernel's grid has 32 points, one per image. At point t the input window's block is image t of the argument (all three
  channels, whole), and the output window's block is row t of the [32, 8, 8] result array, written back at every point. So the
  32 blocks tile the result array, and the array ends holding, at (b, p, q), what point b stored at (0, p, q): the per-block
  result D of the argument. The host operations after the region add the array's entries and divide by 64.
-/
import proofs.«146078_j73358041416354_2_alg».proof.Proof.Gen.KernelIdeal.Frame
import proofs.«146078_j73358041416354_2_alg».proof.Proof.BlockStats
import proofs.«146078_j73358041416354_2_alg».proof.Proof.Tail
import proofs.«146078_j73358041416354_2_alg».proof.Proof.KernelBlock
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.BlockStats Idealize.ShloMosaic.ValueIdx

variable (m : (ℓ : Loc nD τ sig) → Buf (Elt Ideal) ℓ) (ρ : Dev nD → PrngReg)

/-- The argument array as the region finds it, as a function on [32, 3, 1024, 1024]. -/
abbrev argX (c : Dev nD) : SX.Idx → EReal := V m c main_arg0

/-- The printed index maps over the grid: point t's input block is image t (block 0 on the other axes), its output block
    row t. -/
theorem index_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

theorem grid_size : cfg0.N = 32 := N_0

/-- The grid point as an image number. -/
def image (t : Fin cfg0.N) : Fin 32 := ⟨t.val, lt_of_lt_of_eq t.isLt grid_size⟩

/-- Point t's input block, at (0, c, r, s), is the argument at (t, c, r, s). -/
theorem input_block (c : Dev nD) (t : Fin cfg0.N) (ch : Fin 3) (r s : Fin 1024) :
    (iblk m c 0 t : Vec Ideal S1x3x1024x1024 .f32) (ix4 0 ch r s) = argX m c (ix4 (image t) ch r s) := by
  obtain ⟨e0, e1, e2, e3, -, -, -⟩ := index_facts t
  unfold iblk
  rw [View.read_apply]
  show V m c main_arg0 _ = V m c main_arg0 _
  congr 1
  funext a
  apply Fin.ext
  match a with
  | ⟨0, _⟩ => show win0_0.index t (0 : Fin 4) * 1 + 1 * 0 = t.val; omega
  | ⟨1, _⟩ => show win0_0.index t (1 : Fin 4) * 3 + 1 * ch.val = ch.val; omega
  | ⟨2, _⟩ => show win0_0.index t (2 : Fin 4) * 1024 + 1 * r.val = r.val; omega
  | ⟨3, _⟩ => show win0_0.index t (3 : Fin 4) * 1024 + 1 * s.val = s.val; omega

/-- What point t writes back is block t of D of the argument, when the argument's entries are real numbers. -/
theorem flushed_eq (c : Dev nD) (hX : ∀ i, ∃ r : ℝ, argX m c i = (r : EReal)) (t : Fin cfg0.N) :
    (dats m 0 c).flushed 1 t = ((cfg0.win 1).blk t).view.read (Elt Ideal) (D (argX m c)) := by
  obtain ⟨-, -, -, -, e0, e1, e2⟩ := index_facts t
  show (cfg0.win 1).cut (grid0.coords t) ((dats m 0 c).after 1 t) = _
  rw [after0_1]
  funext y
  have hy : (y : S1x8x8.Idx) = ix3 0 (y 1) (y 2) := by
    funext a
    match a with
    | ⟨0, _⟩ => exact Fin.ext (by show (y 0).val = 0; have h0 : (y 0).val < 1 := (y 0).isLt; omega)
    | ⟨1, _⟩ => rfl
    | ⟨2, _⟩ => rfl
  show out0_1 (iblk m c 0 t) y = D (argX m c) (((cfg0.win 1).blk t).view.emb y)
  have hemb : ((cfg0.win 1).blk t).view.emb y = ix3 (image t) (y 1) (y 2) := by
    funext a
    apply Fin.ext
    match a with
    | ⟨0, _⟩ => show win0_1.index t (0 : Fin 3) * 1 + 1 * (y 0).val = t.val; have h0 : (y 0).val < 1 := (y 0).isLt; omega
    | ⟨1, _⟩ => show win0_1.index t (1 : Fin 3) * 8 + 1 * (y 1).val = (y 1).val; omega
    | ⟨2, _⟩ => show win0_1.index t (2 : Fin 3) * 8 + 1 * (y 2).val = (y 2).val; omega
  rw [hemb, hy]
  exact Cert.KernelIdeal.Block.out_apply (argX m c) hX (image t) (iblk m c 0 t) (input_block m c t) (y 1) (y 2)

/-- Every index of the result array lies in the block of the point of its image. -/
theorem covered (i : S32x8x8.Idx) :
    ∃ t : Fin cfg0.N, (cfg0.win 1).flush t = true ∧ i ∈ ((cfg0.win 1).blk t).view.set := by
  have h0 : (i 0).val < 32 := (i 0).isLt
  have h1 : (i 1).val < 8 := (i 1).isLt
  have h2 : (i 2).val < 8 := (i 2).isLt
  let t : Fin cfg0.N := ⟨(i 0).val, by rw [grid_size]; exact h0⟩
  obtain ⟨-, -, -, -, e0, e1, e2⟩ := index_facts t
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1; rw [e0]; show (i 0).val * 1 ≤ (i 0).val ∧ (i 0).val < (i 0).val * 1 + 1; omega
  | ⟨1, _⟩ => show win0_1.index t (1 : Fin 3) * 8 ≤ (i 1).val ∧ (i 1).val < win0_1.index t (1 : Fin 3) * 8 + 8; omega
  | ⟨2, _⟩ => show win0_1.index t (2 : Fin 3) * 8 ≤ (i 2).val ∧ (i 2).val < win0_1.index t (2 : Fin 3) * 8 + 8; omega

/-- So the result array ends holding D of the argument. -/
theorem final (c : Dev nD) (hX : ∀ i, ∃ r : ℝ, argX m c i = (r : EReal)) :
    (dats m 0 c).arrAt 1 cfg0.N = D (argX m c) :=
  (dats m 0 c).arrAt_eq_of_cover 1 (D (argX m c)) (fun t _ => flushed_eq m c hX t) covered

/-- The result buffer is not one of the region's arrays. -/
theorem result_rest : main_v3 ∈ Pipeline.restRefs sig cfg0.spec :=
  Pipeline.mem_restRefs_of main_v3 rfl (fun w => by fin_cases w <;> decide)

/-- After the host operations that follow the region the result buffer holds the shared last step of the result array. -/
theorem result_eq (c : Dev nD) (hX : ∀ i, ∃ r : ℝ, argX m c i = (r : EReal)) :
    Pipeline.afterTail₀ cfgs (dats m) 0 (V0 m) [hostOps1] c main_v3 = tail (D (argX m c)) := by
  unfold Pipeline.afterTail₀
  show StableHlo.after hostOps1 _ (Proc.devRef .tc main_v3) = _
  after_results
  rw [(Pipeline.withArrays_arr spec0 launch0.win.arr_inj c _ _ 1).trans (final m c hX)]
  rfl

/-- The run, read: the result at the shared last step of D of the argument, the argument unchanged. -/
theorem run (hX : ∀ (c : Dev nD) i, ∃ r : ℝ, argX m c i = (r : EReal)) :
    θ_run defs (onTc (τ := τ) (main (F := Ideal))) ⟨m, fun _ => 0, ρ⟩ fun r => ∀ c : Dev nD,
      r.2.mem ((c.tc : Thread nD τ).loc main_v3) = tail (D (m ((c.tc : Thread nD τ).loc main_arg0)))
      ∧ r.2.mem ((c.tc : Thread nD τ).loc main_arg0) = m ((c.tc : Thread nD τ).loc main_arg0) :=
  (θ_run defs _ _).mono (fun r h c => ⟨((h c).2 main_v3 result_rest).trans (result_eq m c (hX c)),
      ((h c).1 0).trans (((dats m 0 c).arrAt_in 0 rfl _).trans ((A_eq m c 0).trans (V_main_arg0 m c)))⟩)
    (run_main m ρ)

end Cert.KernelIdeal.Array

end
-- ==== Proof.RefChain.lean ====
/-
  The reference's per-block result is the specification's `D`.

  After the three block statistics (mean, maximum, minimum, each an array [32, 3, 8, 8] indexed by image, channel and block),
  the reference works one pair of channels at a time. For a pair (i, j) it cuts channel i and channel j out of each statistic
  (a slice of one channel, [32, 1, 8, 8], flattened to [32, 8, 8]), tests whether the two ranges are apart
  (min_i > max_j, or max_i < min_j), squares the difference of the two means, and keeps 0 where the ranges are apart and the
  square elsewhere. The terms of the pairs (0, 1) and (1, 2) are added, then the term of (0, 2).

  Every one of these operations acts entry by entry, so the result at (b, p, q) only involves the statistics of block (p, q)
  of image b. The one computation is about positions: entry (b, p, q) of a flattened one-channel slice is entry (b, c, p, q)
  of the statistic, because the flattening sends position (b * 8 + p) * 8 + q back to (b, 0, p, q) and the slice then moves
  the channel coordinate 0 to c. With the three statistics taken as hypotheses, each pair's term is the specification's
  `pairTerm`, and the two additions give `combine`, hence `D`.
-/
import proofs.«146078_j73358041416354_2_alg».proof.Proof.Gen.ReferenceIdeal.Read
import proofs.«146078_j73358041416354_2_alg».proof.Proof.BlockStats
import Idealize.ShloMosaic.Lib.ValueIdx
import Idealize.ShloMosaic.Lib.Pipeline.Value

noncomputable section

namespace Cert.ReferenceIdeal.RefChain

open Cert.ReferenceIdeal Cert.ReferenceIdeal.Read Cert.BlockStats Idealize.ShloMosaic Idealize.ShloMosaic.ValueIdx

/-! ## Positions: block (b, p, q) of a flattened one-channel slice is block (b, c, p, q) of the statistic -/

/-- Flattening [32, 1, 8, 8] to [32, 8, 8] puts (b, 0, p, q) at (b, p, q): the row-major position (b * 8 + p) * 8 + q
    divided back by 64 and by 8 returns b, p and q. The slice of channel 0 then reads the statistic at channel 0. -/
theorem channel0_position (b : Fin 32) (p q : Fin 8) :
    idx_main_v6 (idx_main_v7 (ix3 b p q)) = ix4 b (0 : Fin 3) p q := by
  funext a
  apply Fin.ext
  have hb := b.isLt
  have hp := p.isLt
  have hq := q.isLt
  match a with
  | ⟨0, _⟩ => show ((b.val * 8 + p.val) * 8 + q.val) / 64 = b.val; omega
  | ⟨1, _⟩ => rfl
  | ⟨2, _⟩ => show ((b.val * 8 + p.val) * 8 + q.val) / 8 % 8 = p.val; omega
  | ⟨3, _⟩ => show ((b.val * 8 + p.val) * 8 + q.val) % 8 = q.val; omega

/-- Flattening [32, 1, 8, 8] to [32, 8, 8] puts (b, 0, p, q) at (b, p, q): the row-major position (b * 8 + p) * 8 + q
    divided back by 64 and by 8 returns b, p and q. The slice of channel 1 then reads the statistic at channel 1. -/
theorem channel1_position (b : Fin 32) (p q : Fin 8) :
    idx_main_v8 (idx_main_v9 (ix3 b p q)) = ix4 b (1 : Fin 3) p q := by
  funext a
  apply Fin.ext
  have hb := b.isLt
  have hp := p.isLt
  have hq := q.isLt
  match a with
  | ⟨0, _⟩ => show ((b.val * 8 + p.val) * 8 + q.val) / 64 = b.val; omega
  | ⟨1, _⟩ => rfl
  | ⟨2, _⟩ => show ((b.val * 8 + p.val) * 8 + q.val) / 8 % 8 = p.val; omega
  | ⟨3, _⟩ => show ((b.val * 8 + p.val) * 8 + q.val) % 8 = q.val; omega

/-- Flattening [32, 1, 8, 8] to [32, 8, 8] puts (b, 0, p, q) at (b, p, q): the row-major position (b * 8 + p) * 8 + q
    divided back by 64 and by 8 returns b, p and q. The slice of channel 2 then reads the statistic at channel 2. -/
theorem channel2_position (b : Fin 32) (p q : Fin 8) :
    idx_main_v26 (idx_main_v27 (ix3 b p q)) = ix4 b (2 : Fin 3) p q := by
  funext a
  apply Fin.ext
  have hb := b.isLt
  have hp := p.isLt
  have hq := q.isLt
  match a with
  | ⟨0, _⟩ => show ((b.val * 8 + p.val) * 8 + q.val) / 64 = b.val; omega
  | ⟨1, _⟩ => rfl
  | ⟨2, _⟩ => show ((b.val * 8 + p.val) * 8 + q.val) / 8 % 8 = p.val; omega
  | ⟨3, _⟩ => show ((b.val * 8 + p.val) * 8 + q.val) % 8 = q.val; omega

/-! ## The pair of channels (0, 1) -/

/-- The pair's first channel's block minimum: channel 0 of the minimums, read at block (p, q) of image b. -/
theorem pair01_min_first (X : SX.Idx → EReal) (b : Fin 32) (p q : Fin 8) :
    val_main_v7 (F := Ideal) X (ix3 b p q) = val_main_v5 (F := Ideal) X (ix4 b (0 : Fin 3) p q) := by
  rw [val_main_v7_apply, val_main_v6_apply]
  exact congrArg (val_main_v5 (F := Ideal) X) (channel0_position b p q)

/-- The pair's second channel's block maximum: channel 1 of the maximums, read at block (p, q) of image b. -/
theorem pair01_max_second (X : SX.Idx → EReal) (b : Fin 32) (p q : Fin 8) :
    val_main_v9 (F := Ideal) X (ix3 b p q) = val_main_v4 (F := Ideal) X (ix4 b (1 : Fin 3) p q) := by
  rw [val_main_v9_apply, val_main_v8_apply]
  exact congrArg (val_main_v4 (F := Ideal) X) (channel1_position b p q)

/-- The pair's first channel's block maximum: channel 0 of the maximums, read at block (p, q) of image b. -/
theorem pair01_max_first (X : SX.Idx → EReal) (b : Fin 32) (p q : Fin 8) :
    val_main_v12 (F := Ideal) X (ix3 b p q) = val_main_v4 (F := Ideal) X (ix4 b (0 : Fin 3) p q) := by
  rw [val_main_v12_apply, val_main_v11_apply]
  exact congrArg (val_main_v4 (F := Ideal) X) (channel0_position b p q)

/-- The pair's second channel's block minimum: channel 1 of the minimums, read at block (p, q) of image b. -/
theorem pair01_min_second (X : SX.Idx → EReal) (b : Fin 32) (p q : Fin 8) :
    val_main_v14 (F := Ideal) X (ix3 b p q) = val_main_v5 (F := Ideal) X (ix4 b (1 : Fin 3) p q) := by
  rw [val_main_v14_apply, val_main_v13_apply]
  exact congrArg (val_main_v5 (F := Ideal) X) (channel1_position b p q)

/-- The pair's first channel's block mean: channel 0 of the means, read at block (p, q) of image b. -/
theorem pair01_mean_first (X : SX.Idx → EReal) (b : Fin 32) (p q : Fin 8) :
    val_main_v18 (F := Ideal) X (ix3 b p q) = val_main_v3 (F := Ideal) X (ix4 b (0 : Fin 3) p q) := by
  rw [val_main_v18_apply, val_main_v17_apply]
  exact congrArg (val_main_v3 (F := Ideal) X) (channel0_position b p q)

/-- The pair's second channel's block mean: channel 1 of the means, read at block (p, q) of image b. -/
theorem pair01_mean_second (X : SX.Idx → EReal) (b : Fin 32) (p q : Fin 8) :
    val_main_v20 (F := Ideal) X (ix3 b p q) = val_main_v3 (F := Ideal) X (ix4 b (1 : Fin 3) p q) := by
  rw [val_main_v20_apply, val_main_v19_apply]
  exact congrArg (val_main_v3 (F := Ideal) X) (channel1_position b p q)

/-- The value kept where the two ranges are apart is the word of 0.0 at every block. -/
theorem pair01_apart_value (i : S32x8x8.Idx) :
    val_main_call0_v1 (F := Ideal) i = Ideal.ofBits .f32 0x00000000#32 := by
  rw [val_main_call0_v1_apply]
  rfl

/-- The term of the pair (0, 1) at block (p, q) of image b is the specification's term of the three statistics:
    0 when min_0 > max_1 or max_0 < min_1, else the square of mean_0 - mean_1. -/
theorem pair01_term (X : SX.Idx → EReal)
    (hmean : ∀ (b : Fin 32) (c : Fin 3) (p q : Fin 8), Read.val_main_v3 (F := Ideal) X (ix4 b c p q) = blkMean X b c p q)
    (hmax : ∀ (b : Fin 32) (c : Fin 3) (p q : Fin 8), Read.val_main_v4 (F := Ideal) X (ix4 b c p q) = blkMax X b c p q)
    (hmin : ∀ (b : Fin 32) (c : Fin 3) (p q : Fin 8), Read.val_main_v5 (F := Ideal) X (ix4 b c p q) = blkMin X b c p q)
    (b : Fin 32) (p q : Fin 8) :
    val_main_v23 (F := Ideal) X (ix3 b p q)
      = pairTerm (fun c => blkMean X b c p q) (fun c => blkMax X b c p q) (fun c => blkMin X b c p q) 0 1 := by
  rw [val_main_v23_apply, val_main_v16_apply, val_main_v10_apply, val_main_v15_apply, val_main_v22_apply, val_main_v21_apply,
    pair01_min_first, pair01_max_second, pair01_max_first, pair01_min_second, pair01_mean_first, pair01_mean_second,
    pair01_apart_value]
  simp only [hmean, hmax, hmin]
  rfl

/-! ## The pair of channels (1, 2) -/

/-- The pair's first channel's block minimum: channel 1 of the minimums, read at block (p, q) of image b. -/
theorem pair12_min_first (X : SX.Idx → EReal) (b : Fin 32) (p q : Fin 8) :
    val_main_v25 (F := Ideal) X (ix3 b p q) = val_main_v5 (F := Ideal) X (ix4 b (1 : Fin 3) p q) := by
  rw [val_main_v25_apply, val_main_v24_apply]
  exact congrArg (val_main_v5 (F := Ideal) X) (channel1_position b p q)

/-- The pair's second channel's block maximum: channel 2 of the maximums, read at block (p, q) of image b. -/
theorem pair12_max_second (X : SX.Idx → EReal) (b : Fin 32) (p q : Fin 8) :
    val_main_v27 (F := Ideal) X (ix3 b p q) = val_main_v4 (F := Ideal) X (ix4 b (2 : Fin 3) p q) := by
  rw [val_main_v27_apply, val_main_v26_apply]
  exact congrArg (val_main_v4 (F := Ideal) X) (channel2_position b p q)

/-- The pair's first channel's block maximum: channel 1 of the maximums, read at block (p, q) of image b. -/
theorem pair12_max_first (X : SX.Idx → EReal) (b : Fin 32) (p q : Fin 8) :
    val_main_v30 (F := Ideal) X (ix3 b p q) = val_main_v4 (F := Ideal) X (ix4 b (1 : Fin 3) p q) := by
  rw [val_main_v30_apply, val_main_v29_apply]
  exact congrArg (val_main_v4 (F := Ideal) X) (channel1_position b p q)

/-- The pair's second channel's block minimum: channel 2 of the minimums, read at block (p, q) of image b. -/
theorem pair12_min_second (X : SX.Idx → EReal) (b : Fin 32) (p q : Fin 8) :
    val_main_v32 (F := Ideal) X (ix3 b p q) = val_main_v5 (F := Ideal) X (ix4 b (2 : Fin 3) p q) := by
  rw [val_main_v32_apply, val_main_v31_apply]
  exact congrArg (val_main_v5 (F := Ideal) X) (channel2_position b p q)

/-- The pair's first channel's block mean: channel 1 of the means, read at block (p, q) of image b. -/
theorem pair12_mean_first (X : SX.Idx → EReal) (b : Fin 32) (p q : Fin 8) :
    val_main_v36 (F := Ideal) X (ix3 b p q) = val_main_v3 (F := Ideal) X (ix4 b (1 : Fin 3) p q) := by
  rw [val_main_v36_apply, val_main_v35_apply]
  exact congrArg (val_main_v3 (F := Ideal) X) (channel1_position b p q)

/-- The pair's second channel's block mean: channel 2 of the means, read at block (p, q) of image b. -/
theorem pair12_mean_second (X : SX.Idx → EReal) (b : Fin 32) (p q : Fin 8) :
    val_main_v38 (F := Ideal) X (ix3 b p q) = val_main_v3 (F := Ideal) X (ix4 b (2 : Fin 3) p q) := by
  rw [val_main_v38_apply, val_main_v37_apply]
  exact congrArg (val_main_v3 (F := Ideal) X) (channel2_position b p q)

/-- The value kept where the two ranges are apart is the word of 0.0 at every block. -/
theorem pair12_apart_value (i : S32x8x8.Idx) :
    val_main_call1_v1 (F := Ideal) i = Ideal.ofBits .f32 0x00000000#32 := by
  rw [val_main_call1_v1_apply]
  rfl

/-- The term of the pair (1, 2) at block (p, q) of image b is the specification's term of the three statistics:
    0 when min_1 > max_2 or max_1 < min_2, else the square of mean_1 - mean_2. -/
theorem pair12_term (X : SX.Idx → EReal)
    (hmean : ∀ (b : Fin 32) (c : Fin 3) (p q : Fin 8), Read.val_main_v3 (F := Ideal) X (ix4 b c p q) = blkMean X b c p q)
    (hmax : ∀ (b : Fin 32) (c : Fin 3) (p q : Fin 8), Read.val_main_v4 (F := Ideal) X (ix4 b c p q) = blkMax X b c p q)
    (hmin : ∀ (b : Fin 32) (c : Fin 3) (p q : Fin 8), Read.val_main_v5 (F := Ideal) X (ix4 b c p q) = blkMin X b c p q)
    (b : Fin 32) (p q : Fin 8) :
    val_main_v41 (F := Ideal) X (ix3 b p q)
      = pairTerm (fun c => blkMean X b c p q) (fun c => blkMax X b c p q) (fun c => blkMin X b c p q) 1 2 := by
  rw [val_main_v41_apply, val_main_v34_apply, val_main_v28_apply, val_main_v33_apply, val_main_v40_apply, val_main_v39_apply,
    pair12_min_first, pair12_max_second, pair12_max_first, pair12_min_second, pair12_mean_first, pair12_mean_second,
    pair12_apart_value]
  simp only [hmean, hmax, hmin]
  rfl

/-! ## The pair of channels (0, 2) -/

/-- The pair's first channel's block minimum: channel 0 of the minimums, read at block (p, q) of image b. -/
theorem pair02_min_first (X : SX.Idx → EReal) (b : Fin 32) (p q : Fin 8) :
    val_main_v44 (F := Ideal) X (ix3 b p q) = val_main_v5 (F := Ideal) X (ix4 b (0 : Fin 3) p q) := by
  rw [val_main_v44_apply, val_main_v43_apply]
  exact congrArg (val_main_v5 (F := Ideal) X) (channel0_position b p q)

/-- The pair's second channel's block maximum: channel 2 of the maximums, read at block (p, q) of image b. -/
theorem pair02_max_second (X : SX.Idx → EReal) (b : Fin 32) (p q : Fin 8) :
    val_main_v46 (F := Ideal) X (ix3 b p q) = val_main_v4 (F := Ideal) X (ix4 b (2 : Fin 3) p q) := by
  rw [val_main_v46_apply, val_main_v45_apply]
  exact congrArg (val_main_v4 (F := Ideal) X) (channel2_position b p q)

/-- The pair's first channel's block maximum: channel 0 of the maximums, read at block (p, q) of image b. -/
theorem pair02_max_first (X : SX.Idx → EReal) (b : Fin 32) (p q : Fin 8) :
    val_main_v49 (F := Ideal) X (ix3 b p q) = val_main_v4 (F := Ideal) X (ix4 b (0 : Fin 3) p q) := by
  rw [val_main_v49_apply, val_main_v48_apply]
  exact congrArg (val_main_v4 (F := Ideal) X) (channel0_position b p q)

/-- The pair's second channel's block minimum: channel 2 of the minimums, read at block (p, q) of image b. -/
theorem pair02_min_second (X : SX.Idx → EReal) (b : Fin 32) (p q : Fin 8) :
    val_main_v51 (F := Ideal) X (ix3 b p q) = val_main_v5 (F := Ideal) X (ix4 b (2 : Fin 3) p q) := by
  rw [val_main_v51_apply, val_main_v50_apply]
  exact congrArg (val_main_v5 (F := Ideal) X) (channel2_position b p q)

/-- The pair's first channel's block mean: channel 0 of the means, read at block (p, q) of image b. -/
theorem pair02_mean_first (X : SX.Idx → EReal) (b : Fin 32) (p q : Fin 8) :
    val_main_v55 (F := Ideal) X (ix3 b p q) = val_main_v3 (F := Ideal) X (ix4 b (0 : Fin 3) p q) := by
  rw [val_main_v55_apply, val_main_v54_apply]
  exact congrArg (val_main_v3 (F := Ideal) X) (channel0_position b p q)

/-- The pair's second channel's block mean: channel 2 of the means, read at block (p, q) of image b. -/
theorem pair02_mean_second (X : SX.Idx → EReal) (b : Fin 32) (p q : Fin 8) :
    val_main_v57 (F := Ideal) X (ix3 b p q) = val_main_v3 (F := Ideal) X (ix4 b (2 : Fin 3) p q) := by
  rw [val_main_v57_apply, val_main_v56_apply]
  exact congrArg (val_main_v3 (F := Ideal) X) (channel2_position b p q)

/-- The value kept where the two ranges are apart is the word of 0.0 at every block. -/
theorem pair02_apart_value (i : S32x8x8.Idx) :
    val_main_call2_v1 (F := Ideal) i = Ideal.ofBits .f32 0x00000000#32 := by
  rw [val_main_call2_v1_apply]
  rfl

/-- The term of the pair (0, 2) at block (p, q) of image b is the specification's term of the three statistics:
    0 when min_0 > max_2 or max_0 < min_2, else the square of mean_0 - mean_2. -/
theorem pair02_term (X : SX.Idx → EReal)
    (hmean : ∀ (b : Fin 32) (c : Fin 3) (p q : Fin 8), Read.val_main_v3 (F := Ideal) X (ix4 b c p q) = blkMean X b c p q)
    (hmax : ∀ (b : Fin 32) (c : Fin 3) (p q : Fin 8), Read.val_main_v4 (F := Ideal) X (ix4 b c p q) = blkMax X b c p q)
    (hmin : ∀ (b : Fin 32) (c : Fin 3) (p q : Fin 8), Read.val_main_v5 (F := Ideal) X (ix4 b c p q) = blkMin X b c p q)
    (b : Fin 32) (p q : Fin 8) :
    val_main_v60 (F := Ideal) X (ix3 b p q)
      = pairTerm (fun c => blkMean X b c p q) (fun c => blkMax X b c p q) (fun c => blkMin X b c p q) 0 2 := by
  rw [val_main_v60_apply, val_main_v53_apply, val_main_v47_apply, val_main_v52_apply, val_main_v59_apply, val_main_v58_apply,
    pair02_min_first, pair02_max_second, pair02_max_first, pair02_min_second, pair02_mean_first, pair02_mean_second,
    pair02_apart_value]
  simp only [hmean, hmax, hmin]
  rfl

/-! ## The three terms added -/

/-- The reference's per-block result: the terms of (0, 1) and (1, 2) added, then the term of (0, 2), at every block of every
    image: the specification's `D`. -/
theorem v61_eq (X : SX.Idx → EReal)
    (hmean : ∀ (b : Fin 32) (c : Fin 3) (p q : Fin 8), Read.val_main_v3 (F := Ideal) X (ix4 b c p q) = blkMean X b c p q)
    (hmax : ∀ (b : Fin 32) (c : Fin 3) (p q : Fin 8), Read.val_main_v4 (F := Ideal) X (ix4 b c p q) = blkMax X b c p q)
    (hmin : ∀ (b : Fin 32) (c : Fin 3) (p q : Fin 8), Read.val_main_v5 (F := Ideal) X (ix4 b c p q) = blkMin X b c p q) :
    Read.val_main_v61 (F := Ideal) X = D X := by
  funext i
  obtain ⟨b, p, q, rfl⟩ : ∃ (b : Fin 32) (p q : Fin 8), i = ix3 b p q := ⟨i 0, i 1, i 2, eq_ix3 i⟩
  rw [val_main_v61_apply, val_main_v42_apply, pair01_term X hmean hmax hmin, pair12_term X hmean hmax hmin,
    pair02_term X hmean hmax hmin, D_apply]
  rfl

end Cert.ReferenceIdeal.RefChain

end
-- ==== Proof.RefStats.lean ====
/-
  The reference's three statistics of a block, read at an index.

  The reference reshapes the argument X : [32, 3, 1024, 1024] to [32, 3, 8, 128, 8, 128] — entry (b, c, p, k1, q, k2) of
  the reshaped array is X at (b, c, 128 p + k1, 128 q + k2), since both have the same row-major position — and then
  reduces over axes 3 and 5 at once: a sum from 0 divided by 16384, a maximum from -inf, a minimum from +inf. At the
  result index (b, c, p, q) each reduction runs over the source indices whose coordinates on the kept axes 0, 1, 2, 4
  are b, c, p, q. Those indices are exactly the images of the pairs (k1, k2) : Fin 128 × Fin 128 under the injective map
  k ↦ (b, c, p, k1, q, k2), so the sum and the two folds become ones over Fin 128 × Fin 128 whose term at k is entry k
  of block (p, q) of channel c of image b: the block's mean, maximum and minimum as the specification states them.
-/
import proofs.«146078_j73358041416354_2_alg».proof.Proof.Gen.ReferenceIdeal.Read
import proofs.«146078_j73358041416354_2_alg».proof.Proof.BlockStats
import Idealize.ShloMosaic.Lib.ValueIdx
import Idealize.ShloMosaic.Lib.ValueIdxRank6
import Idealize.ShloMosaic.Lib.Pipeline.Value
import Idealize.ShloMosaic.Lib.IdealHost
import Idealize.ShloMosaic.PureOps.Ideal.Laws
import Idealize.ShloMosaic.PureOps.Reduce

noncomputable section

namespace Cert.ReferenceIdeal.RefStats

open Cert.ReferenceIdeal Cert.ReferenceIdeal.Read Cert.BlockStats Idealize.ShloMosaic Idealize.ShloMosaic.ValueIdx

/-- The shape of the argument cut into blocks, and the shape of one statistic. -/
abbrev SB : Shape := ⟨6, ![32, 3, 8, 128, 8, 128]⟩
abbrev SS : Shape := ⟨4, ![32, 3, 8, 8]⟩

/-- The index (b, c, p, k.1, q, k.2): entry k of block (p, q) of channel c of image b in the array cut into blocks. -/
def blockIdx (b : Fin 32) (c : Fin 3) (p q : Fin 8) (k : Fin 128 × Fin 128) : SB.Idx :=
  ix6 b c p k.1 q k.2

/-- Different entries of a block sit at different indices. -/
theorem blockIdx_injective (b : Fin 32) (c : Fin 3) (p q : Fin 8) : Function.Injective (blockIdx b c p q) := by
  intro k k' h
  exact Prod.ext (congrFun h (3 : Fin 6)) (congrFun h (5 : Fin 6))

/-- Reducing over axes 3 and 5 keeps the coordinates on axes 0, 1, 2 and 4, in that order. -/
theorem drop_eq (h : SB.ReducesTo [3, 5] SS) (i : SB.Idx) :
    h.drop i = ix4 (i 0 : Fin 32) (i 1 : Fin 3) (i 2 : Fin 8) (i 4 : Fin 8) := by
  funext a
  match a with
  | ⟨0, _⟩ => exact Fin.ext (h.drop_apply_val_of_eq i 0 0)
  | ⟨1, _⟩ => exact Fin.ext (h.drop_apply_val_of_eq i 1 1)
  | ⟨2, _⟩ => exact Fin.ext (h.drop_apply_val_of_eq i 2 2)
  | ⟨3, _⟩ => exact Fin.ext (h.drop_apply_val_of_eq i 3 4)

/-- The source indices that reduce to (b, c, p, q) are exactly the entries of block (p, q) of channel c of image b. -/
theorem fibre_eq_image (h : SB.ReducesTo [3, 5] SS) (b : Fin 32) (c : Fin 3) (p q : Fin 8) :
    (Finset.univ.filter fun i : SB.Idx => h.drop i = ix4 b c p q) = Finset.univ.image (blockIdx b c p q) := by
  ext i
  rw [Finset.mem_filter, Finset.mem_image]
  simp only [Finset.mem_univ, true_and]
  constructor
  · intro hi
    rw [drop_eq] at hi
    have h0 : (i 0 : Fin 32) = b := congrFun hi (0 : Fin 4)
    have h1 : (i 1 : Fin 3) = c := congrFun hi (1 : Fin 4)
    have h2 : (i 2 : Fin 8) = p := congrFun hi (2 : Fin 4)
    have h4 : (i 4 : Fin 8) = q := congrFun hi (3 : Fin 4)
    subst h0 h1 h2 h4
    exact ⟨(i 3, i 5), (eq_ix6 i).symm⟩
  · rintro ⟨k, rfl⟩
    rw [drop_eq]
    rfl

/-- The reshaped argument at entry k of a block is the argument at row 128 p + k.1 and column 128 q + k.2 of the channel:
    the two indices have the same row-major position. -/
theorem reshaped_blockIdx (X : SX.Idx → EReal) (b : Fin 32) (c : Fin 3) (p q : Fin 8) (k : Fin 128 × Fin 128) :
    val_main_v0 (F := Ideal) X (blockIdx b c p q k) = entry X b c p q k := by
  unfold val_main_v0 entry
  refine shapeCast_apply X _ _ (ix4 b c (pos p k.1) (pos q k.2)) ?_
  rw [Shape.rowMajor_val_four, Shape.rowMajor_val_six]
  show ((b.val * 3 + c.val) * 1024 + (pos p k.1).val) * 1024 + (pos q k.2).val
      = ((((b.val * 3 + c.val) * 8 + p.val) * 128 + k.1.val) * 8 + q.val) * 128 + k.2.val
  rw [pos_val, pos_val]
  omega

/-- The reference's mean of a block: 0 plus the sum of the block's entries, over the f32 word of 16384. -/
theorem mean_apply (X : SX.Idx → EReal) (b : Fin 32) (c : Fin 3) (p q : Fin 8) :
    Read.val_main_v3 (F := Ideal) X (ix4 b c p q) = blkMean X b c p q := by
  rw [val_main_v3_apply, val_main_v2_apply, val_main_cst_0_apply]
  unfold val_main_v1 blkMean
  rw [hostReduceAdd_apply, val_main_cst_apply]
  unfold Ideal.hostReduceAdd
  rw [fibre_eq_image, Finset.sum_image (fun x _ y _ hxy => blockIdx_injective b c p q hxy)]
  simp only [reshaped_blockIdx]
  show Ideal.div (Ideal.ofBits .f32 0x00000000#32 + _) _ = _
  rw [Ideal.ofBits_zero_f32, zero_add]
  rfl

/-- The reference's maximum of a block: the fold of max from -inf over the block's entries. -/
theorem max_apply (X : SX.Idx → EReal) (b : Fin 32) (c : Fin 3) (p q : Fin 8) :
    Read.val_main_v4 (F := Ideal) X (ix4 b c p q) = blkMax X b c p q := by
  unfold val_main_v4 blkMax
  rw [Host.reduce_eq_fold, val_main_cst_1_apply, fibre_eq_image,
    Finset.fold_image (fun x _ y _ hxy => blockIdx_injective b c p q hxy)]
  have e : (val_main_v0 (F := Ideal) X ∘ blockIdx b c p q) = entry X b c p q :=
    funext fun k => reshaped_blockIdx X b c p q k
  rw [e]
  rfl

/-- The reference's minimum of a block: the fold of min from +inf over the block's entries. -/
theorem min_apply (X : SX.Idx → EReal) (b : Fin 32) (c : Fin 3) (p q : Fin 8) :
    Read.val_main_v5 (F := Ideal) X (ix4 b c p q) = blkMin X b c p q := by
  unfold val_main_v5 blkMin
  rw [Host.reduce_eq_fold, val_main_cst_2_apply, fibre_eq_image,
    Finset.fold_image (fun x _ y _ hxy => blockIdx_injective b c p q hxy)]
  have e : (val_main_v0 (F := Ideal) X ∘ blockIdx b c p q) = entry X b c p q :=
    funext fun k => reshaped_blockIdx X b c p q k
  rw [e]
  rfl

end Cert.ReferenceIdeal.RefStats
-- ==== Proof.RefResult.lean ====
/-
  The reference's result is the shared last step applied to the per-block result.

  Once the per-block result is known to be `D X` (every block of every image gets the sum of its three channel pairs' terms),
  the reference only adds all 32 * 8 * 8 of those entries, starting from 0, divides the sum by 64.0, and presents the scalar as
  an array of one entry. That is word for word the specification's `tail`: the same sum from the same 0, the same divisor,
  the same change of shape, over the same literal shapes. So the reference's result is `tail (D X)`, first as a function of
  the argument array, then for the value the reference's run leaves in its result.
-/
import proofs.«146078_j73358041416354_2_alg».proof.Proof.Gen.ReferenceIdeal.Read
import proofs.«146078_j73358041416354_2_alg».proof.Proof.RefChain
import proofs.«146078_j73358041416354_2_alg».proof.Proof.RefStats
import proofs.«146078_j73358041416354_2_alg».proof.Proof.Tail

noncomputable section

namespace Cert.ReferenceIdeal.RefResult

open Cert.ReferenceIdeal Cert.ReferenceIdeal.Gen Cert.ReferenceIdeal.Read Cert.BlockStats Idealize.ShloMosaic
  Idealize.ShloMosaic.ValueIdx Idealize.ShloMosaic.TcCoe Idealize.SL.Sem Idealize.ShloMosaic.StableHlo

/-- As a function of the argument array: the sum of all entries of the per-block result, from 0, over 64.0, as an array of
    one entry. The three block statistics are the specification's, so the per-block result is `D X`; what follows it in the
    reference is the specification's last step, operation for operation. -/
theorem v64_eq (X : SX.Idx → EReal) : Read.val_main_v64 (F := Ideal) X = tail (D X) := by
  unfold val_main_v64 val_main_v63 val_main_v62
  rw [RefChain.v61_eq X (RefStats.mean_apply X) (RefStats.max_apply X) (RefStats.min_apply X)]
  rfl

/-- The value the reference's run leaves in its result, in terms of the array it was given. -/
theorem result_eq (m : (ℓ : Loc nD τ sig) → Buf (Elt Ideal) ℓ) (c : Dev nD) :
    Cert.ReferenceIdeal.Value.res_main_v64 (F := Ideal) m c = tail (D (m ((c.tc : Thread nD τ).loc main_arg0))) := by
  rw [val_main_v64_eq]
  exact v64_eq _

end Cert.ReferenceIdeal.RefResult

end
-- ==== Proof.RealInputs.lean ====
/-
  From the certificate's precondition to "every entry of the argument is a real number".

  The precondition is jnp.all(|x| < inf) of the argument X : [32, 3, 1024, 1024]: the entrywise comparison of |X| with
  the f32 word of +inf, reduced by `and` over all four axes from the constant 1, and the claim is that the result is 1.
  A reduction by `and` into a result with one index that comes out 1 met a 1 at every index of its operand, so at every
  index i the comparison holds: max (X i) (-(X i)) < +inf on the extended reals. Neither infinity satisfies that strict
  inequality (for both, the larger of x and -x is +inf), so X i is a real number.
-/
import proofs.«146078_j73358041416354_2_alg».proof.Pre_finite_inputs
import proofs.«146078_j73358041416354_2_alg».proof.Proof.BlockStats
import Idealize.ShloMosaic.Lib.ReduceAll
import Idealize.ShloMosaic.Lib.ValueIdx
import Idealize.ShloMosaic.PureOps.Ideal.Laws

noncomputable section

namespace Cert.RealInputs

open Cert.BlockStats Idealize.ShloMosaic Idealize.ShloMosaic.ValueIdx

/-- The f32 word 0x7F800000 is +inf. -/
theorem ofBits_pos_inf : Ideal.ofBits .f32 0x7F800000#32 = (⊤ : EReal) := by
  simp [Ideal.ofBits, Ideal.ieee]

/-- An extended real whose absolute value (the larger of x and -x) is below +inf is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A rank-0 shape has one index. -/
instance : Subsingleton Cert.Pre_finite_inputs.S_.Idx := ⟨fun a b => funext fun d => d.elim0⟩

/-- Under the precondition every entry of the argument is a real number. -/
theorem real_of_pre [Cert.Pre_finite_inputs.Facts] (X : SX.Idx → EReal)
    (h : Cert.Pre_finite_inputs.fn (F := Ideal) X = (fun _ => 1#1)) : ∀ i, ∃ r : ℝ, X i = (r : EReal) := by
  intro i
  have h0 := congrFun h ix0
  dsimp only [Cert.Pre_finite_inputs.fn] at h0
  have hi := Host.reduce_andi_all _ _ _ _ _ h0 i
  have hc : Ideal.cmp .olt (max (X i) (-(X i))) (Ideal.ofBits .f32 0x7F800000#32) = 1#1 := hi
  rw [ofBits_pos_inf] at hc
  refine real_of_abs_lt_top (X i) ?_
  by_contra hn
  have hz : Ideal.cmp .olt (max (X i) (-(X i))) (⊤ : EReal) = 0#1 := by
    simp [Ideal.cmp, hn]
  rw [hz] at hc
  exact absurd hc (by decide)

end Cert.RealInputs
-- ==== Proof.lean ====
/-
  The proof of `Cert.Claim` for the block colour-distance kernel against its jnp reference.

  Both programs take an array X of shape [32, 3, 1024, 1024] (32 images of 3 channels), cut every 1024 x 1024 channel into an
  8 x 8 grid of 128 x 128 blocks, take each block's mean, maximum and minimum, combine the three channels' statistics of a
  block pair by pair (a pair contributes 0 when the two channels' ranges at the block do not meet, the squared difference
  of the means otherwise), add everything and divide by 64.

  The kernel takes each statistic in two stages (down a block's rows, then across its columns; the mean divides by 128 at
  each stage), one image per grid point; the reference reduces over the whole block at once (the mean divides by 16384).
  At the ideal values, where a float is an extended real and every operation exact, a two-stage maximum or minimum is the
  one-stage one on any extended reals; the two-stage mean is the one-stage mean when the entries are real numbers, which
  the precondition (every input finite) says. So both results are ONE function of X — `tail (D X)` (Proof/BlockStats.lean,
  Proof/Tail.lean) — and the claim's two runs are stated with that term:
    * Proof/KernelBlock.lean: what one grid point stores, read at an index (over Proof/TwoStage.lean, the two-stage laws);
    * Proof/KernelArray.lean: the 32 blocks tile the result array, and the host operations after the region;
    * Proof/RefStats.lean, Proof/RefChain.lean, Proof/RefResult.lean: the reference's statistics, its pointwise
      operations and its result;
    * Proof/RealInputs.lean: the precondition gives real entries.
  The three frame claims are the generated frames (the reference's is its generated run with the result dropped); the
  ideal pass rewrote nothing, so `preserves` is `True`.
-/
import proofs.«146078_j73358041416354_2_alg».proof.Defs
import proofs.«146078_j73358041416354_2_alg».proof.Proof.Gen.Kernel
import proofs.«146078_j73358041416354_2_alg».proof.Proof.Gen.Kernel.Skeleton
import proofs.«146078_j73358041416354_2_alg».proof.Proof.Gen.Kernel.Launch
import proofs.«146078_j73358041416354_2_alg».proof.Proof.Gen.Kernel.Points
import proofs.«146078_j73358041416354_2_alg».proof.Proof.Gen.Kernel.Frame
import proofs.«146078_j73358041416354_2_alg».proof.Proof.Gen.KernelIdeal
import proofs.«146078_j73358041416354_2_alg».proof.Proof.Gen.KernelIdeal.Skeleton
import proofs.«146078_j73358041416354_2_alg».proof.Proof.Gen.KernelIdeal.Launch
import proofs.«146078_j73358041416354_2_alg».proof.Proof.Gen.KernelIdeal.Points
import proofs.«146078_j73358041416354_2_alg».proof.Proof.Gen.KernelIdeal.Frame
import proofs.«146078_j73358041416354_2_alg».proof.Proof.Gen.ReferenceIdeal
import proofs.«146078_j73358041416354_2_alg».proof.Proof.Gen.ReferenceIdeal.Run
import proofs.«146078_j73358041416354_2_alg».proof.Proof.Gen.ReferenceIdeal.Read
import proofs.«146078_j73358041416354_2_alg».proof.Proof.Gen.Pre_finite_inputs
import proofs.«146078_j73358041416354_2_alg».proof.Proof.KernelArray
import proofs.«146078_j73358041416354_2_alg».proof.Proof.RefResult
import proofs.«146078_j73358041416354_2_alg».proof.Proof.RealInputs
import Idealize.ShloMosaic.Adequacy
import Idealize.ShloMosaic.Init

noncomputable section

namespace Cert.Proof

open Idealize.ShloMosaic Idealize.SL.Sem Cert.BlockStats

/-- The word-level kernel runs and leaves its argument unchanged: the generated frame. -/
theorem frame_kernel : Cert.frame_Kernel := fun m ρ _ => Cert.Kernel.Gen.frame m ρ

/-- The idealized kernel likewise. -/
theorem frame_kernel_ideal : Cert.frame_KernelIdeal := fun m ρ _ => Cert.KernelIdeal.Gen.frame m ρ

/-- The reference runs and leaves its argument unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the argument both programs end with the shared last step of D of the argument: the kernel's
    run needs the entries real (the precondition), the reference's run does not. -/
theorem algebraic : Cert.algebraic_KernelIdeal_ReferenceIdeal := by
  intro m ρ m' ρ' hpre hagree
  refine ⟨fun c => tail (D (m ((c.tc : Thread Cert.KernelIdeal.nD Cert.KernelIdeal.τ).loc Cert.KernelIdeal.main_arg0))),
    Cert.KernelIdeal.Array.run m ρ (fun c => Cert.RealInputs.real_of_pre _ (hpre c)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefResult.result_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
